-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩

class Facts : Prop where
  bcast_S_S1x10000x10000 : S_.BroadcastsInDim S1x10000x10000 (![] : Fin 0 → Fin S1x10000x10000.rank)
  reducesTo_S1x10000x10000_S_d0_1_2 : S1x10000x10000.ReducesTo [0, 1, 2] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x10000 .f32) (main_arg1 : FVec F S1x10000x128 .f32) (main_arg2 : FVec F S128x128 .f32) (main_arg3 : FVec F S128 .f32) (main_arg4 : FVec F S_ .f32) : IVec S_ 1 :=
  let main_v0 : FVec F S1x10000x10000 .f32 := Host.absf main_arg0
  let main_cst : FVec F S_ .f32 := constant S_ .f32 0x7F800000#32
  let main_v1 : FVec F S1x10000x10000 .f32 := broadcastInDim S1x10000x10000 ![] bcast_S_S1x10000x10000 main_cst
  let main_v2 : IVec S1x10000x10000 1 := cmpf .olt main_v0 main_v1
  let main_c : IVec S_ 1 := constantI S_ 1 1#1
  let main_v3 : IVec S_ 1 := (fun x v => Host.reduce IntOp.andi x v reducesTo_S1x10000x10000_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 8
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x10000, .f32⟩
  | .hbm, ⟨6, _⟩ => ⟨S10000x128, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | _, _ => ⟨S1x10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x10000_S10000x10000 : S1x10000x10000.ShapeCasts S10000x10000
  shapeCasts_S1x10000x128_S10000x128 : S1x10000x128.ShapeCasts S10000x128
  shapeCasts_S128_S1x128 : S128.ShapeCasts S1x128
  shapeCasts_S_S1x1 : S_.ShapeCasts S1x1
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  shapeCasts_S10000x128_S1x10000x128 : S10000x128.ShapeCasts S1x10000x128
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_v0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x10000 : Shape := ⟨3, ![1, 10000, 10000]⟩
abbrev S1x10000x128 : Shape := ⟨3, ![1, 10000, 128]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x10000x10000, .f32⟩
  | .hbm, ⟨1, _⟩ => ⟨S1x10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x10000x128, .f32⟩
  | .hbm, ⟨14, _⟩ => ⟨S1x10000x128, .f32⟩
  | .hbm, ⟨15, _⟩ => ⟨S1x10000x128, .f32⟩
  | _, _ => ⟨S1x10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.Spec.lean ====
/-
  One graph-convolution layer on the extended reals, entry by entry.

  For a node `i` and an output feature `o` write `a` for row `i` of the adjacency (`a j`, over the nodes `j`),
  `S` for the node features (`S j d`), `w` for row `o` of the weight (`w d`) and `b` for the bias entry `o`.
  The layer's pre-activation can be summed in two orders:

    * features first, then neighbours:   refRow a S w = sum_j a j * (sum_d S j d * w d)
    * neighbours first, then features:   kerRow a S w = sum_d (sum_j a j * S j d) * w d

  and the entry is `act alpha (row + b)` with `act alpha z = z` where `z >= 0` and `alpha * z` elsewhere.
  The two orders are the associativity of a vector through two matrix products: distributivity and an exchange
  of two finite sums. Distributivity fails at the infinities, so the identity is stated for real-valued `a`, `S`
  and `w`; the bias and the slope `alpha` enter after the sums and may be anything.

  `layer` is the whole output array [10000, 128] in the neighbours-first order, as a function of the five arrays a
  row block of the computation reads: adjacency [10000, 10000], features [10000, 128], weight [128, 128],
  bias as a row [1, 128], slope as [1, 1].
-/
import Idealize.ShloMosaic.PureOps.Ideal
import Idealize.ShloMosaic.Lib.ValueIdx
import proofs.«117876_g34986803593431_cont_8to1_b_28_17_alg».proof.Proof.LibVecMatAssoc
import proofs.«117876_g34986803593431_cont_8to1_b_28_17_alg».proof.Proof.LibRealValued

noncomputable section

namespace Cert.Gcn

open Idealize.ShloMosaic Idealize.ShloMosaic.ValueIdx Cert.Lib.RealValued

/-- The leaky activation: `z` where `z >= 0`, `alpha * z` elsewhere (the comparison is the ordered `>=` against the
    f32 zero pattern, as both programs print it). -/
def act (alpha z : EReal) : EReal :=
  Scalar.select (Ideal.cmp .oge z (Ideal.ofBits .f32 0x00000000#32)) z (alpha * z)

/-- Neighbours first, then features. -/
def kerRow (a : Fin 10000 → EReal) (S : Fin 10000 → Fin 128 → EReal) (w : Fin 128 → EReal) : EReal :=
  ∑ d : Fin 128, (∑ j : Fin 10000, a j * S j d) * w d

/-- Features first, then neighbours. -/
def refRow (a : Fin 10000 → EReal) (S : Fin 10000 → Fin 128 → EReal) (w : Fin 128 → EReal) : EReal :=
  ∑ j : Fin 10000, a j * ∑ d : Fin 128, S j d * w d

/-- One output entry, neighbours first. -/
def kerOut (alpha : EReal) (a : Fin 10000 → EReal) (S : Fin 10000 → Fin 128 → EReal) (w : Fin 128 → EReal) (b : EReal) : EReal :=
  act alpha (kerRow a S w + b)

/-- One output entry, features first. -/
def refOut (alpha : EReal) (a : Fin 10000 → EReal) (S : Fin 10000 → Fin 128 → EReal) (w : Fin 128 → EReal) (b : EReal) : EReal :=
  act alpha (refRow a S w + b)

/-- The two orders of summation agree on real-valued operands. -/
theorem kerRow_eq_refRow (a : Fin 10000 → EReal) (S : Fin 10000 → Fin 128 → EReal) (w : Fin 128 → EReal)
    (ha : ∀ j, IsReal (a j)) (hS : ∀ j d, IsReal (S j d)) (hw : ∀ d, IsReal (w d)) :
    kerRow a S w = refRow a S w :=
  Cert.Lib.VecMatAssoc.vec_mat_assoc a S w ha hS hw

/-- So do the two entries, whatever the bias and the slope. -/
theorem kerOut_eq_refOut (alpha : EReal) (a : Fin 10000 → EReal) (S : Fin 10000 → Fin 128 → EReal) (w : Fin 128 → EReal) (b : EReal)
    (ha : ∀ j, IsReal (a j)) (hS : ∀ j d, IsReal (S j d)) (hw : ∀ d, IsReal (w d)) :
    kerOut alpha a S w b = refOut alpha a S w b := by
  unfold kerOut refOut
  rw [kerRow_eq_refRow a S w ha hS hw]

/-- The whole output array, neighbours first: entry (i, o) reads row `i` of the adjacency, all the features, row `o` of
    the weight, bias entry `o` and the slope. -/
def layer (a0 : (⟨2, ![10000, 10000]⟩ : Shape).Idx → EReal) (a1 : (⟨2, ![10000, 128]⟩ : Shape).Idx → EReal)
    (a2 : (⟨2, ![128, 128]⟩ : Shape).Idx → EReal) (a3 : (⟨2, ![1, 128]⟩ : Shape).Idx → EReal)
    (a4 : (⟨2, ![1, 1]⟩ : Shape).Idx → EReal) : (⟨2, ![10000, 128]⟩ : Shape).Idx → EReal := fun i =>
  kerOut (a4 (ix2 0 0)) (fun j => a0 (ix2 (i 0) j)) (fun j d => a1 (ix2 j d)) (fun d => a2 (ix2 (i 1) d)) (a3 (ix2 0 (i 1)))

theorem layer_apply (a0 : (⟨2, ![10000, 10000]⟩ : Shape).Idx → EReal) (a1 : (⟨2, ![10000, 128]⟩ : Shape).Idx → EReal)
    (a2 : (⟨2, ![128, 128]⟩ : Shape).Idx → EReal) (a3 : (⟨2, ![1, 128]⟩ : Shape).Idx → EReal)
    (a4 : (⟨2, ![1, 1]⟩ : Shape).Idx → EReal) (p : Fin 10000) (q : Fin 128) :
    layer a0 a1 a2 a3 a4 (ix2 p q)
      = kerOut (a4 (ix2 0 0)) (fun j => a0 (ix2 p j)) (fun j d => a1 (ix2 j d)) (fun d => a2 (ix2 q d)) (a3 (ix2 0 q)) := rfl

end Cert.Gcn

end
-- ==== Proof.Payload.lean ====
/-
  What one row block of the layer computes, entry by entry.

  A row block holds 400 rows of the adjacency, `A` of shape [400, 10000], and reads all the node features `S` [10000, 128],
  the weight `W` [128, 128], the bias as a row `b` [1, 128] and the slope as `alpha` [1, 1]. Its arithmetic is

    T = A · S                 (entry (p, d):  sum over the nodes j of  A (p, j) * S (j, d)),
    U = T · Wᵀ                (entry (p, q):  sum over the features d of  T (p, d) * W (q, d): against the weight's ROWS),
    Z = U + b                 (the one bias row repeated over the 400 rows),
    out = Z where Z >= 0, alpha * Z elsewhere.

  Both products start from the zero array, so on the extended reals each is the plain sum over the contracted index.
  Hence entry (p, q) of the block is

    act alpha ((sum_d (sum_j A (p, j) * S (j, d)) * W (q, d)) + b (0, q)),

  the neighbours-first entry `kerOut` of the specification, at row `p` of the block's adjacency rows and row `q` of the
  weight. The lemmas below read each operation at an index: the two products (the contraction index of each is
  re-indexed by its one coordinate, and the operand indices are named coordinate by coordinate), the bias row's
  broadcast, and the extraction of the slope; `pay_apply` puts them together.
-/
import proofs.«117876_g34986803593431_cont_8to1_b_28_17_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws
import proofs.«117876_g34986803593431_cont_8to1_b_28_17_alg».proof.Proof.Spec

noncomputable section

namespace Cert.Gcn.Body

open Idealize.ShloMosaic Idealize.ShloMosaic.ValueIdx Cert.KernelIdeal Cert.KernelIdeal.Gen

/-! ## The first product, [400, 10000] · [10000, 128]: the operand indices, coordinate by coordinate -/

/-- The left operand's row is the output's row (a free axis). -/
private theorem mm1_lhs_0 (i : S400x128.Idx) (k : dot_S400x10000_S10000x128_S400x128_1_0_0_1_n_n.contr.Idx) :
    (dot_S400x10000_S10000x128_S400x128_1_0_0_1_n_n.lhsIdx i k 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- The left operand's column is the contraction coordinate. -/
private theorem mm1_lhs_1 (i : S400x128.Idx) (k : dot_S400x10000_S10000x128_S400x128_1_0_0_1_n_n.contr.Idx) :
    (dot_S400x10000_S10000x128_S400x128_1_0_0_1_n_n.lhsIdx i k 1).val = (k ⟨0, by decide⟩).val :=
  dot_S400x10000_S10000x128_S400x128_1_0_0_1_n_n.lhsIdx_val_of_single rfl i k

/-- The right operand's row is the contraction coordinate. -/
private theorem mm1_rhs_0 (i : S400x128.Idx) (k : dot_S400x10000_S10000x128_S400x128_1_0_0_1_n_n.contr.Idx) :
    (dot_S400x10000_S10000x128_S400x128_1_0_0_1_n_n.rhsIdx i k 0).val = (k ⟨0, by decide⟩).val :=
  dot_S400x10000_S10000x128_S400x128_1_0_0_1_n_n.rhsIdx_val_of_single rfl i k

/-- The right operand's column is the output's column (a free axis). -/
private theorem mm1_rhs_1 (i : S400x128.Idx) (k : dot_S400x10000_S10000x128_S400x128_1_0_0_1_n_n.contr.Idx) :
    (dot_S400x10000_S10000x128_S400x128_1_0_0_1_n_n.rhsIdx i k 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Into the zero array, `x · y` at `(p, d)` is the sum over `j` of `x (p, j) * y (j, d)`. -/
private theorem mm1_apply (x : FVec Ideal S400x10000 .f32) (y : FVec Ideal S10000x128 .f32) (p : Fin 400) (d : Fin 128) :
    matmul (F := Ideal) dot_S400x10000_S10000x128_S400x128_1_0_0_1_n_n none x y (constant (F := Ideal) S400x128 .f32 0x00000000#32) (ix2 p d)
      = ∑ j : Fin 10000, x (ix2 p j) * y (ix2 j d) := by
  refine (Ideal.matmul_constant_zero_apply dot_S400x10000_S10000x128_S400x128_1_0_0_1_n_n none x y (ix2 p d)).trans ?_
  rw [← Equiv.sum_comp (ValueIdx.contrEquiv1 dot_S400x10000_S10000x128_S400x128_1_0_0_1_n_n 10000 rfl rfl).symm]
  refine Finset.sum_congr rfl fun j _ => ?_
  have hj := ValueIdx.contrEquiv1_symm_val dot_S400x10000_S10000x128_S400x128_1_0_0_1_n_n 10000 rfl rfl j
  have el : dot_S400x10000_S10000x128_S400x128_1_0_0_1_n_n.lhsIdx (ix2 p d) ((ValueIdx.contrEquiv1 dot_S400x10000_S10000x128_S400x128_1_0_0_1_n_n 10000 rfl rfl).symm j) = ix2 p j :=
    funext fun a => Fin.ext (by
      match a with
      | ⟨0, _⟩ => exact mm1_lhs_0 _ _
      | ⟨1, _⟩ => exact (mm1_lhs_1 _ _).trans hj)
  have er : dot_S400x10000_S10000x128_S400x128_1_0_0_1_n_n.rhsIdx (ix2 p d) ((ValueIdx.contrEquiv1 dot_S400x10000_S10000x128_S400x128_1_0_0_1_n_n 10000 rfl rfl).symm j) = ix2 j d :=
    funext fun a => Fin.ext (by
      match a with
      | ⟨0, _⟩ => exact (mm1_rhs_0 _ _).trans hj
      | ⟨1, _⟩ => exact mm1_rhs_1 _ _)
  rw [el, er]

/-! ## The second product, [400, 128] · [128, 128]ᵀ: both operands are contracted along their columns -/

/-- The left operand's row is the output's row (a free axis). -/
private theorem mm2_lhs_0 (i : S400x128.Idx) (k : dot_S400x128_S128x128_S400x128_1_1_0_0_n_n.contr.Idx) :
    (dot_S400x128_S128x128_S400x128_1_1_0_0_n_n.lhsIdx i k 0).val = (i 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl

/-- The left operand's column is the contraction coordinate. -/
private theorem mm2_lhs_1 (i : S400x128.Idx) (k : dot_S400x128_S128x128_S400x128_1_1_0_0_n_n.contr.Idx) :
    (dot_S400x128_S128x128_S400x128_1_1_0_0_n_n.lhsIdx i k 1).val = (k ⟨0, by decide⟩).val :=
  dot_S400x128_S128x128_S400x128_1_1_0_0_n_n.lhsIdx_val_of_single rfl i k

/-- The right operand's row is the output's column (a free axis): the weight is read by rows. -/
private theorem mm2_rhs_0 (i : S400x128.Idx) (k : dot_S400x128_S128x128_S400x128_1_1_0_0_n_n.contr.Idx) :
    (dot_S400x128_S128x128_S400x128_1_1_0_0_n_n.rhsIdx i k 0).val = (i 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl

/-- The right operand's column is the contraction coordinate. -/
private theorem mm2_rhs_1 (i : S400x128.Idx) (k : dot_S400x128_S128x128_S400x128_1_1_0_0_n_n.contr.Idx) :
    (dot_S400x128_S128x128_S400x128_1_1_0_0_n_n.rhsIdx i k 1).val = (k ⟨0, by decide⟩).val :=
  dot_S400x128_S128x128_S400x128_1_1_0_0_n_n.rhsIdx_val_of_single rfl i k

/-- Into the zero array, `x · yᵀ` at `(p, q)` is the sum over `d` of `x (p, d) * y (q, d)`. -/
private theorem mm2_apply (x : FVec Ideal S400x128 .f32) (y : FVec Ideal S128x128 .f32) (p : Fin 400) (q : Fin 128) :
    matmul (F := Ideal) dot_S400x128_S128x128_S400x128_1_1_0_0_n_n none x y (constant (F := Ideal) S400x128 .f32 0x00000000#32) (ix2 p q)
      = ∑ d : Fin 128, x (ix2 p d) * y (ix2 q d) := by
  refine (Ideal.matmul_constant_zero_apply dot_S400x128_S128x128_S400x128_1_1_0_0_n_n none x y (ix2 p q)).trans ?_
  rw [← Equiv.sum_comp (ValueIdx.contrEquiv1 dot_S400x128_S128x128_S400x128_1_1_0_0_n_n 128 rfl rfl).symm]
  refine Finset.sum_congr rfl fun d _ => ?_
  have hd := ValueIdx.contrEquiv1_symm_val dot_S400x128_S128x128_S400x128_1_1_0_0_n_n 128 rfl rfl d
  have el : dot_S400x128_S128x128_S400x128_1_1_0_0_n_n.lhsIdx (ix2 p q) ((ValueIdx.contrEquiv1 dot_S400x128_S128x128_S400x128_1_1_0_0_n_n 128 rfl rfl).symm d) = ix2 p d :=
    funext fun a => Fin.ext (by
      match a with
      | ⟨0, _⟩ => exact mm2_lhs_0 _ _
      | ⟨1, _⟩ => exact (mm2_lhs_1 _ _).trans hd)
  have er : dot_S400x128_S128x128_S400x128_1_1_0_0_n_n.rhsIdx (ix2 p q) ((ValueIdx.contrEquiv1 dot_S400x128_S128x128_S400x128_1_1_0_0_n_n 128 rfl rfl).symm d) = ix2 q d :=
    funext fun a => Fin.ext (by
      match a with
      | ⟨0, _⟩ => exact mm2_rhs_0 _ _
      | ⟨1, _⟩ => exact (mm2_rhs_1 _ _).trans hd)
  rw [el, er]

/-! ## The slope: the one entry of a [1, 1] array -/

/-- Extracting position `[0, 0]` of a [1, 1] array reads it at `(0, 0)`. -/
private theorem extract00_apply (v : FVec Ideal S1x1 .f32) :
    extractAt ![0, 0] v inpos_S1x1_p0_0 = v (ix2 (0 : Fin 1) (0 : Fin 1)) := by
  unfold extractAt
  refine congrArg v (funext fun a => Fin.ext ?_)
  match a with
  | ⟨0, _⟩ => rfl
  | ⟨1, _⟩ => rfl

/-! ## The pre-activation: both products and the bias -/

/-- The array `Z = (A · S) · Wᵀ + b` of the header, as the row block writes it (each cast is to the operand's own shape
    and changes nothing): at `(p, q)` it is the neighbours-first row sum plus bias entry `q`. -/
private theorem pre_apply (v0 : Vec Ideal S400x10000 .f32) (v2 : Vec Ideal S10000x128 .f32) (v5 : Vec Ideal S128x128 .f32)
    (v7 : Vec Ideal S1x128 .f32) (p : Fin 400) (q : Fin 128) :
    addf (F := Ideal) (φ := .f32)
        (matmul (F := Ideal) (φ₁ := .f32) (φ₂ := .f32) dot_S400x128_S128x128_S400x128_1_1_0_0_n_n none
          (matmul (F := Ideal) (φ₁ := .f32) (φ₂ := .f32) dot_S400x10000_S10000x128_S400x128_1_0_0_1_n_n none
            (shapeCast S400x10000 v0 shapeCasts_S400x10000_S400x10000)
            (shapeCast S10000x128 v2 shapeCasts_S10000x128_S10000x128)
            (constant (F := Ideal) S400x128 .f32 0x00000000#32))
          v5 (constant (F := Ideal) S400x128 .f32 0x00000000#32))
        (broadcastTo S400x128 (shapeCast S1x128 v7 shapeCasts_S1x128_S1x128) broadcasts_S1x128_S400x128)
        (ix2 p q)
      = Cert.Gcn.kerRow (fun j => v0 (ix2 p j)) (fun j d => v2 (ix2 j d)) (fun d => v5 (ix2 q d))
          + v7 (ix2 (0 : Fin 1) q) := by
  rw [shapeCast_self, shapeCast_self, shapeCast_self, addf_apply, mm2_apply, broadcastTo_1b_ab_apply]
  unfold Cert.Gcn.kerRow
  refine congrArg (· + v7 (ix2 (0 : Fin 1) q)) (Finset.sum_congr rfl fun d _ => ?_)
  rw [mm1_apply]

/-! ## The entry -/

/-- Entry `(p, q)` of a row block's stored value is the neighbours-first entry of the specification: the slope, row `p`
    of the block's adjacency rows, all the features, row `q` of the weight and bias entry `q`. The comparison, the
    product with the slope and the selection read at an index are the operations on the entries, so the stored value at
    `(p, q)` is the activation of `Z (p, q)` with the extracted slope. -/
theorem pay_apply (v0 : Vec Ideal S400x10000 .f32) (v2 : Vec Ideal S10000x128 .f32) (v5 : Vec Ideal S128x128 .f32)
    (v7 : Vec Ideal S1x128 .f32) (v13 : Vec Ideal S1x1 .f32) (p : Fin 400) (q : Fin 128) :
    k0_pay1 (F := Ideal) v0 v2 v5 v7 v13 (ix2 p q)
      = Cert.Gcn.kerOut (v13 (ix2 (0 : Fin 1) (0 : Fin 1))) (fun j => v0 (ix2 p j)) (fun j d => v2 (ix2 j d))
          (fun d => v5 (ix2 q d)) (v7 (ix2 (0 : Fin 1) q)) := by
  refine Eq.trans (b := Cert.Gcn.act (extractAt ![0, 0] v13 inpos_S1x1_p0_0)
    (Cert.Gcn.kerRow (fun j => v0 (ix2 p j)) (fun j d => v2 (ix2 j d)) (fun d => v5 (ix2 q d))
      + v7 (ix2 (0 : Fin 1) q))) ?_ ?_
  · exact congrArg (Cert.Gcn.act (extractAt ![0, 0] v13 inpos_S1x1_p0_0)) (pre_apply v0 v2 v5 v7 p q)
  · rw [extract00_apply]
    rfl

end Cert.Gcn.Body

end
-- ==== Proof.Blocks.lean ====
/-
  From row blocks to the whole output array.

  The computation runs over 25 grid points. At point `t` it reads rows 400 t .. 400 t + 399 of the adjacency
  (a [400, 10000] block), the whole of the features, of the weight, of the bias row and of the slope, and writes rows
  400 t .. 400 t + 399 of the output (a [400, 128] block). Entry (y0, y1) of the block written at point `t` is the
  layer's entry at row 400 t + y0 and column y1: the adjacency row the block's entry reads is the array's row
  400 t + y0, and the other four operands are read whole (`point_eq`, `flushed_eq`). The 25 row blocks tile the
  10000 rows (row r lies in block r / 400), so after the last point the output array is `layer` of the five arrays
  the computation was launched on (`cover`, `final5`).
-/
import proofs.«117876_g34986803593431_cont_8to1_b_28_17_alg».proof.Proof.Gen.KernelIdeal.Frame
import Idealize.ShloMosaic.Lib.Pipeline.Value
import Idealize.ShloMosaic.Lib.Tactic
import proofs.«117876_g34986803593431_cont_8to1_b_28_17_alg».proof.Proof.Payload
import proofs.«117876_g34986803593431_cont_8to1_b_28_17_alg».proof.Proof.Spec

set_option maxRecDepth 16384

noncomputable section

open Idealize.ShloMosaic Idealize.ShloMosaic.TcCoe Idealize.ShloMosaic.ValueIdx Idealize.SL.Sem
open Idealize.ShloMosaic.Pipeline (Dat)

namespace Cert.Gcn.Blocks

open Cert.KernelIdeal Cert.KernelIdeal.Gen Cert.Gcn

variable (m : (ℓ : Loc nD τ sig) → Buf (Elt Ideal) ℓ)

/-- The zero offsets of a whole-buffer access, as a function. -/
theorem hz : (![0, 0] : Fin 2 → Nat) = fun _ => 0 := funext fun a => by fin_cases a <;> rfl

/-- The body's result on one row block is the matching 400 rows of `layer`: row `y 0` of the adjacency block is row
    `i 0` of the adjacency, the other four blocks are their whole arrays, and the column is the same. -/
theorem point_eq (x0 : Vec Ideal S400x10000 .f32) (x1 : Vec Ideal S10000x128 .f32) (x2 : Vec Ideal S128x128 .f32)
    (x3 : Vec Ideal S1x128 .f32) (x4 : Vec Ideal S1x1 .f32)
    (a0 : S10000x10000.Idx → EReal) (a1 : S10000x128.Idx → EReal) (a2 : S128x128.Idx → EReal)
    (a3 : S1x128.Idx → EReal) (a4 : S1x1.Idx → EReal) (y : S400x128.Idx) (i : S10000x128.Idx)
    (h0 : ∀ j : Fin 10000, x0 (ix2 (y 0) j) = a0 (ix2 (i 0) j))
    (h1 : ∀ (j : Fin 10000) (d : Fin 128), x1 (ix2 j d) = a1 (ix2 j d))
    (h2 : ∀ (o d : Fin 128), x2 (ix2 o d) = a2 (ix2 o d))
    (h3 : ∀ o : Fin 128, x3 (ix2 (0 : Fin 1) o) = a3 (ix2 (0 : Fin 1) o))
    (h4 : x4 (ix2 (0 : Fin 1) (0 : Fin 1)) = a4 (ix2 (0 : Fin 1) (0 : Fin 1)))
    (hi : i 1 = y 1) :
    k0_pay1 (F := Ideal) x0 x1 x2 x3 x4 y = layer a0 a1 a2 a3 a4 i := by
  obtain ⟨p, q, rfl⟩ : ∃ (p : Fin 400) (q : Fin 128), y = ix2 p q := ⟨y 0, y 1, eq_ix2 y⟩
  obtain ⟨p', q', rfl⟩ : ∃ (p' : Fin 10000) (q' : Fin 128), i = ix2 p' q' := ⟨i 0, i 1, eq_ix2 i⟩
  have h0' : ∀ j : Fin 10000, x0 (ix2 p j) = a0 (ix2 p' j) := h0
  obtain rfl : q' = q := hi
  rw [Cert.Gcn.Body.pay_apply, layer_apply]
  simp only [h0', h1, h2, h3, h4]

/-- The printed index maps over the 25 grid points: the adjacency's and the output's row blocks move together, block
    `t` at point `t`; every other window stays on its one block. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- What point `t` writes back is block `t` of `layer` of the five arrays as the region finds them. -/
theorem flushed_eq (c : Dev nD) (t : Fin cfg0.N) :
    (dats m 0 c).flushed 5 t = ((cfg0.win 5).blk t).view.read (Elt Ideal)
      (layer (V m c main_v0) (V m c main_v1) (V m c main_arg2) (V m c main_v2) (V m c main_v3)) := by
  show (cfg0.win 5).cut (grid0.coords t) ((dats m 0 c).after 5 t) = _
  rw [after0_5]
  unfold out0_5
  rw [View.canon_unit_zero hz]
  simp only [View.ld_unit_zero (S := S400x10000) hz, View.ld_unit_zero (S := S10000x128) hz, View.ld_unit_zero (S := S128x128) hz,
    View.ld_unit_zero (S := S1x128) hz, View.ld_unit_zero (S := S1x1) hz]
  obtain ⟨e00, e01, e10, e11, e20, e21, e30, e31, e40, e41, e50, e51⟩ := idx_facts t
  funext y
  show k0_pay1 (F := Ideal) (iblk m c 0 t) (iblk m c 1 t) (iblk m c 2 t) (iblk m c 3 t) (iblk m c 4 t) y
    = layer (V m c main_v0) (V m c main_v1) (V m c main_arg2) (V m c main_v2) (V m c main_v3) (((cfg0.win 5).blk t).view.emb y)
  refine point_eq (iblk m c 0 t) (iblk m c 1 t) (iblk m c 2 t) (iblk m c 3 t) (iblk m c 4 t)
    (V m c main_v0) (V m c main_v1) (V m c main_arg2) (V m c main_v2) (V m c main_v3) y (((cfg0.win 5).blk t).view.emb y)
    ?_ ?_ ?_ ?_ ?_ ?_
  · intro j
    show V m c main_v0 (((cfg0.win 0).blk t).view.emb (ix2 (y 0) j)) = _
    refine congrArg (V m c main_v0) (funext fun a => Fin.ext ?_)
    match a with
    | ⟨0, _⟩ => show win0_0.index t (0 : Fin 2) * 400 + 1 * (y 0).val = win0_5.index t (0 : Fin 2) * 400 + 1 * (y 0).val; omega
    | ⟨1, _⟩ => show win0_0.index t (1 : Fin 2) * 10000 + 1 * j.val = j.val; omega
  · intro j d
    show V m c main_v1 (((cfg0.win 1).blk t).view.emb (ix2 j d)) = _
    refine congrArg (V m c main_v1) (funext fun a => Fin.ext ?_)
    match a with
    | ⟨0, _⟩ => show win0_1.index t (0 : Fin 2) * 10000 + 1 * j.val = j.val; omega
    | ⟨1, _⟩ => show win0_1.index t (1 : Fin 2) * 128 + 1 * d.val = d.val; omega
  · intro o d
    show V m c main_arg2 (((cfg0.win 2).blk t).view.emb (ix2 o d)) = _
    refine congrArg (V m c main_arg2) (funext fun a => Fin.ext ?_)
    match a with
    | ⟨0, _⟩ => show win0_2.index t (0 : Fin 2) * 128 + 1 * o.val = o.val; omega
    | ⟨1, _⟩ => show win0_2.index t (1 : Fin 2) * 128 + 1 * d.val = d.val; omega
  · intro o
    show V m c main_v2 (((cfg0.win 3).blk t).view.emb (ix2 (0 : Fin 1) o)) = _
    refine congrArg (V m c main_v2) (funext fun a => Fin.ext ?_)
    match a with
    | ⟨0, _⟩ => show win0_3.index t (0 : Fin 2) * 1 + 1 * 0 = 0; omega
    | ⟨1, _⟩ => show win0_3.index t (1 : Fin 2) * 128 + 1 * o.val = o.val; omega
  · show V m c main_v3 (((cfg0.win 4).blk t).view.emb (ix2 (0 : Fin 1) (0 : Fin 1))) = _
    refine congrArg (V m c main_v3) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  · refine Fin.ext ?_
    show win0_5.index t (1 : Fin 2) * 128 + 1 * (y 1).val = (y 1).val
    omega

/-- An index of the output array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4).slice (win0_5.rect t)).set ↔ _
  rw [View.set_slice_whole, Rect.mem_set_unit]
  exact Iff.rfl

/-- The 25 row blocks tile the output array: row `r` lies in block `r / 400`. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto ⟨(i 0).val / 400, by omega⟩
  have q0 : win0_5.index t (0 : Fin 2) = (i 0).val / 400 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The output array after the run is `layer` of the five arrays as the region finds them. -/
theorem final5 (c : Dev nD) : (dats m 0 c).arrAt 5 cfg0.N
    = layer (V m c main_v0) (V m c main_v1) (V m c main_arg2) (V m c main_v2) (V m c main_v3) :=
  (dats m 0 c).arrAt_eq_of_cover 5 _ (fun t _ => flushed_eq m c t) cover

end Cert.Gcn.Blocks

end
-- ==== Proof.Host.lean ====
/-
  The plain re-layouts around the computation, read at an index.

  Before the row-block computation the program views the batched adjacency [1, 10000, 10000] as a matrix
  [10000, 10000], the batched features [1, 10000, 128] as [10000, 128], the bias vector [128] as a row [1, 128]
  and the scalar slope as [1, 1]; after it, it views the result matrix [10000, 128] as the batched [1, 10000, 128].
  Each is a reshape, which keeps the row-major position of every entry: dropping or adding a leading axis of
  extent one leaves the other coordinates as they are. So entry (p, j) of the matrix is entry (0, p, j) of the
  batched array, entry (0, o) of the row is entry o of the vector, and the one entry of the [1, 1] array is the
  scalar.
-/
import proofs.«117876_g34986803593431_cont_8to1_b_28_17_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.Gcn.Host

open Cert.KernelIdeal Cert.KernelIdeal.Gen

variable (m : (ℓ : Loc nD τ sig) → Buf (Elt Ideal) ℓ)

/-! ## The four arrays the computation is launched on -/

/-- The adjacency as a matrix is the batched adjacency reshaped. -/
theorem V_v0 (c : Dev nD) : (V m c main_v0 : S10000x10000.Idx → EReal)
    = shapeCast S10000x10000 (m ((c : Thread nD τ).loc main_arg0)) shapeCasts_S1x10000x10000_S10000x10000 := by
  show StableHlo.after hostOps0 (fun b => m (c, b)) (Proc.devRef .tc main_v0) = _
  after_results
  rfl

/-- The features as a matrix are the batched features reshaped. -/
theorem V_v1 (c : Dev nD) : (V m c main_v1 : S10000x128.Idx → EReal)
    = shapeCast S10000x128 (m ((c : Thread nD τ).loc main_arg1)) shapeCasts_S1x10000x128_S10000x128 := by
  show StableHlo.after hostOps0 (fun b => m (c, b)) (Proc.devRef .tc main_v1) = _
  after_results
  rfl

/-- The bias as a row is the bias vector reshaped. -/
theorem V_v2 (c : Dev nD) : (V m c main_v2 : S1x128.Idx → EReal)
    = shapeCast S1x128 (m ((c : Thread nD τ).loc main_arg3)) shapeCasts_S128_S1x128 := by
  show StableHlo.after hostOps0 (fun b => m (c, b)) (Proc.devRef .tc main_v2) = _
  after_results
  rfl

/-- The slope as a [1, 1] array is the scalar reshaped. -/
theorem V_v3 (c : Dev nD) : (V m c main_v3 : S1x1.Idx → EReal)
    = shapeCast S1x1 (m ((c : Thread nD τ).loc main_arg4)) shapeCasts_S_S1x1 := by
  show StableHlo.after hostOps0 (fun b => m (c, b)) (Proc.devRef .tc main_v3) = _
  after_results
  rfl

/-- Entry (p, j) of the adjacency matrix is entry (0, p, j) of the batched adjacency. -/
theorem V_v0_apply (c : Dev nD) (p j : Fin 10000) :
    V m c main_v0 (ix2 p j) = m ((c : Thread nD τ).loc main_arg0) (ix3 (0 : Fin 1) p j) :=
  (congrFun (V_v0 m c) (ix2 p j)).trans (shapeCast_1ab_ab_apply _ _ p j)

/-- Entry (j, d) of the feature matrix is entry (0, j, d) of the batched features. -/
theorem V_v1_apply (c : Dev nD) (j : Fin 10000) (d : Fin 128) :
    V m c main_v1 (ix2 j d) = m ((c : Thread nD τ).loc main_arg1) (ix3 (0 : Fin 1) j d) :=
  (congrFun (V_v1 m c) (ix2 j d)).trans (shapeCast_1ab_ab_apply _ _ j d)

/-- Entry (0, o) of the bias row is entry o of the bias vector. -/
theorem V_v2_apply (c : Dev nD) (o : Fin 128) :
    V m c main_v2 (ix2 (0 : Fin 1) o) = m ((c : Thread nD τ).loc main_arg3) (ix1 o) :=
  (congrFun (V_v2 m c) (ix2 (0 : Fin 1) o)).trans (shapeCast_a_1a_apply _ _ (0 : Fin 1) o)

/-- The one entry of the [1, 1] slope is the scalar (a scalar has one index). -/
theorem V_v3_apply (c : Dev nD) :
    V m c main_v3 (ix2 (0 : Fin 1) (0 : Fin 1)) = m ((c : Thread nD τ).loc main_arg4) ix0 := by
  refine (congrFun (V_v3 m c) (ix2 (0 : Fin 1) (0 : Fin 1))).trans ?_
  unfold shapeCast
  exact congrArg _ (funext fun a => a.elim0)

/-! ## The result -/

/-- The program's result is the computation's output matrix reshaped to the batched shape. -/
theorem tail_eq (c : Dev nD) :
    (Pipeline.afterTail₀ cfgs (dats m) 0 (V0 m) [hostOps1] c main_v5 : S1x10000x128.Idx → EReal)
      = shapeCast S1x10000x128 ((dats m 0 c).arrAt 5 cfg0.N) shapeCasts_S10000x128_S1x10000x128 := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4)
      = (dats m 0 c).arrAt 5 cfg0.N from Pipeline.withArrays_arr spec0 launch0.win.arr_inj c _ _ 5]
  rfl

/-- Entry (0, p, q) of the result is entry (p, q) of the output matrix. -/
theorem tail_apply (c : Dev nD) (p : Fin 10000) (q : Fin 128) :
    Pipeline.afterTail₀ cfgs (dats m) 0 (V0 m) [hostOps1] c main_v5 (ix3 (0 : Fin 1) p q)
      = (dats m 0 c).arrAt 5 cfg0.N (ix2 p q) :=
  (congrFun (tail_eq m c) (ix3 (0 : Fin 1) p q)).trans (shapeCast_ab_1ab_apply _ _ (0 : Fin 1) p q)

end Cert.Gcn.Host

end
-- ==== Proof.KernelValue.lean ====
/-
  The kernel program's result, entry by entry, over the program's arguments.

  The program views its batched arguments as matrices, runs the row-block computation, and views the output matrix
  as the batched result. Put together: entry (0, p, q) of the result is the neighbours-first entry of the layer at
  node `p` and output feature `q`, read from row `p` of the batched adjacency, all the batched features, row `q` of
  the weight, bias entry `q` and the scalar slope (`result_apply`). `run` is the program's run with its result
  buffer named and its five arguments unchanged.
-/
import proofs.«117876_g34986803593431_cont_8to1_b_28_17_alg».proof.Proof.Blocks
import proofs.«117876_g34986803593431_cont_8to1_b_28_17_alg».proof.Proof.Host

noncomputable section

open Idealize.ShloMosaic Idealize.ShloMosaic.TcCoe Idealize.ShloMosaic.ValueIdx Idealize.SL.Sem
open Idealize.ShloMosaic.Pipeline (Dat)

namespace Cert.Gcn.Kernel

open Cert.KernelIdeal Cert.KernelIdeal.Gen Cert.Gcn

variable (m : (ℓ : Loc nD τ sig) → Buf (Elt Ideal) ℓ)

/-- Entry (0, p, q) of the program's result, over the program's arguments. -/
theorem result_apply (c : Dev nD) (p : Fin 10000) (q : Fin 128) :
    Pipeline.afterTail₀ cfgs (dats m) 0 (V0 m) [hostOps1] c main_v5 (ix3 (0 : Fin 1) p q)
      = kerOut (m ((c : Thread nD τ).loc main_arg4) ix0)
          (fun j => m ((c : Thread nD τ).loc main_arg0) (ix3 (0 : Fin 1) p j))
          (fun j d => m ((c : Thread nD τ).loc main_arg1) (ix3 (0 : Fin 1) j d))
          (fun d => m ((c : Thread nD τ).loc main_arg2) (ix2 q d))
          (m ((c : Thread nD τ).loc main_arg3) (ix1 q)) := by
  rw [Host.tail_apply, Blocks.final5, layer_apply, Host.V_v3_apply, Host.V_v2_apply]
  have e0 : (fun j : Fin 10000 => V m c main_v0 (ix2 p j))
      = fun j => m ((c : Thread nD τ).loc main_arg0) (ix3 (0 : Fin 1) p j) := funext fun j => Host.V_v0_apply m c p j
  have e1 : (fun (j : Fin 10000) (d : Fin 128) => V m c main_v1 (ix2 j d))
      = fun j d => m ((c : Thread nD τ).loc main_arg1) (ix3 (0 : Fin 1) j d) :=
    funext fun j => funext fun d => Host.V_v1_apply m c j d
  have e2 : (fun d : Fin 128 => V m c main_arg2 (ix2 q d))
      = fun d => m ((c : Thread nD τ).loc main_arg2) (ix2 q d) := funext fun d => congrFun (V_main_arg2 m c) (ix2 q d)
  rw [e0, e1, e2]

/-- The program's run: it terminates without a fault, its result buffer holds the re-laid output matrix, and its
    five arguments end as they began. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v5 (Pipeline.mem_restRefs_of main_v5 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Gcn.Kernel

end
-- ==== Proof.RefRead.lean ====
/-
  The reference program read at one entry.

  The reference computes the layer features first: it multiplies the node features by the transposed weight, then
  multiplies the adjacency by that product, adds the bias along the feature axis, and passes the sum through the
  leaky activation (the entry itself where it is at least zero, the slope times the entry elsewhere).

  Read at node `p` and output feature `q` this is

      act alpha ( (sum over nodes j of  A p j * (sum over features d of  S j d * W q d))  +  b q )

  which is `refOut` of the specification: row `p` of the adjacency, all the node features, row `q` of the weight,
  the bias entry `q` and the slope. The proof reads the program's operations one at a time, outermost first, names
  the composed index of each operand by its coordinates, and is then the definition of `refOut`.
-/
import proofs.«117876_g34986803593431_cont_8to1_b_28_17_alg».proof.Proof.Gen.ReferenceIdeal.Read
import proofs.«117876_g34986803593431_cont_8to1_b_28_17_alg».proof.Proof.Spec

noncomputable section

namespace Cert.Gcn.Ref

open Idealize.ShloMosaic Idealize.ShloMosaic.ValueIdx Cert.ReferenceIdeal Cert.ReferenceIdeal.Read

/-- The adjacency operand of the outer product at entry (p, q), term `j`: entry (p, j). -/
private theorem lidx1_eq (p : Fin 10000) (q : Fin 128) (j : Fin 10000) :
    lidx_main_v1 (ix3 (0 : Fin 1) p q) j = ix3 (0 : Fin 1) p j :=
  funext fun a => Fin.ext (by match a with | ⟨0, _⟩ => rfl | ⟨1, _⟩ => rfl | ⟨2, _⟩ => rfl)

/-- The inner product's entry the outer product reads at (p, q), term `j`: entry (j, q). -/
private theorem ridx1_eq (p : Fin 10000) (q : Fin 128) (j : Fin 10000) :
    ridx_main_v1 (ix3 (0 : Fin 1) p q) j = ix3 (0 : Fin 1) j q :=
  funext fun a => Fin.ext (by match a with | ⟨0, _⟩ => rfl | ⟨1, _⟩ => rfl | ⟨2, _⟩ => rfl)

/-- The feature operand of the inner product at entry (j, q), term `d`: entry (j, d). -/
private theorem lidx0_eq (j : Fin 10000) (q : Fin 128) (d : Fin 128) :
    lidx_main_v0 (ix3 (0 : Fin 1) j q) d = ix3 (0 : Fin 1) j d :=
  funext fun a => Fin.ext (by match a with | ⟨0, _⟩ => rfl | ⟨1, _⟩ => rfl | ⟨2, _⟩ => rfl)

/-- The weight operand of the inner product at entry (j, q), term `d`: entry (q, d), the weight read transposed. -/
private theorem ridx0_eq (j : Fin 10000) (q : Fin 128) (d : Fin 128) :
    ridx_main_v0 (ix3 (0 : Fin 1) j q) d = ix2 q d :=
  funext fun a => Fin.ext (by match a with | ⟨0, _⟩ => rfl | ⟨1, _⟩ => rfl)

/-- The bias entry broadcast to (p, q): entry q. -/
private theorem bias_idx_eq (p : Fin 10000) (q : Fin 128) :
    idx_main_v2 (idx_main_v3 (ix3 (0 : Fin 1) p q)) = ix1 q :=
  funext fun a => Fin.ext (by match a with | ⟨0, _⟩ => rfl)

/-- The slope broadcast to (p, q): the scalar's one entry. -/
private theorem slope_idx_eq (p : Fin 10000) (q : Fin 128) :
    idx_main_v7 (ix3 (0 : Fin 1) p q) = ix0 :=
  funext fun a => a.elim0

theorem ref_apply (x0 : (⟨S1x10000x10000, .f32⟩ : BufTy).Contents (Elt Ideal)) (x1 : (⟨S1x10000x128, .f32⟩ : BufTy).Contents (Elt Ideal))
    (x2 : (⟨S128x128, .f32⟩ : BufTy).Contents (Elt Ideal)) (x3 : (⟨S128, .f32⟩ : BufTy).Contents (Elt Ideal))
    (x4 : (⟨S_, .f32⟩ : BufTy).Contents (Elt Ideal)) (p : Fin 10000) (q : Fin 128) :
    val_main_v9 (F := Ideal) x0 x1 x2 x3 x4 (ix3 (0 : Fin 1) p q)
      = Cert.Gcn.refOut (x4 ix0) (fun j => x0 (ix3 (0 : Fin 1) p j)) (fun j d => x1 (ix3 (0 : Fin 1) j d))
          (fun d => x2 (ix2 q d)) (x3 (ix1 q)) := by
  -- the operations, outermost first: select, compare, multiply, add, the two products, the broadcasts
  rw [val_main_v9_apply, val_main_v6_apply, val_main_v8_apply, val_main_v4_apply, val_main_v1_apply,
    val_main_v3_apply, val_main_v2_apply, val_main_v5_apply, val_main_cst_apply, val_main_v7_apply]
  simp only [val_main_v0_apply]
  -- each operand's index by its coordinates
  simp only [lidx1_eq, ridx1_eq, lidx0_eq, ridx0_eq, bias_idx_eq, slope_idx_eq]
  -- what is left is the specification's entry, with the float operations read on the extended reals
  rfl

end Cert.Gcn.Ref

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«117876_g34986803593431_cont_8to1_b_28_17_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  From the precondition "every float input is finite" to real-valued operands.

  The precondition tests each of the five float inputs the same way: the absolute value of the array is compared
  `<`, entry by entry, with the splat of the pattern of `+∞`, and the one-bit answers are reduced by `and` from `1`
  over all axes; the five one-bit results are then joined by `and`. A conjunction of one-bit words is `1` exactly
  when each word is, so the hypothesis that the whole test answered `1` gives each input's own test. At the ideal
  reading `|x| = max x (−x)` and the pattern `0x7F800000` denotes `⊤`; `max x (−x) < ⊤` holds exactly of the real
  numbers. So a test `|x| < +∞` that answered `1` on every entry makes every entry a real: every entry of the
  adjacency, of the features and of the weight is a real number.

  The bias and the slope are tested too, but the layer's identity does not need them to be real (they enter after
  the sums), so their two conjuncts are dropped here.
-/
import proofs.«117876_g34986803593431_cont_8to1_b_28_17_alg».proof.Proof.Gen.Pre_finite_inputs
import Idealize.ShloMosaic.Lib.ValueIdx
import proofs.«117876_g34986803593431_cont_8to1_b_28_17_alg».proof.Proof.LibFiniteTest

noncomputable section

namespace Cert.Gcn.Finite

open Idealize.ShloMosaic Cert.Lib.RealValued

/-- The shape of a scalar has exactly one index. -/
private instance subsingleton_scalar_idx : Subsingleton Cert.Pre_finite_inputs.S_.Idx :=
  ⟨fun a b => funext fun d => d.elim0⟩

theorem real_of_pre (x0 : FVec Ideal Cert.Pre_finite_inputs.S1x10000x10000 .f32) (x1 : FVec Ideal Cert.Pre_finite_inputs.S1x10000x128 .f32)
    (x2 : FVec Ideal Cert.Pre_finite_inputs.S128x128 .f32) (x3 : FVec Ideal Cert.Pre_finite_inputs.S128 .f32)
    (x4 : FVec Ideal Cert.Pre_finite_inputs.S_ .f32)
    (h : Cert.Pre_finite_inputs.fn (F := Ideal) x0 x1 x2 x3 x4 = fun _ => 1#1) :
    AllReal x0 ∧ AllReal x1 ∧ AllReal x2 := by
  -- the one entry of the rank-0 result
  have h0 := congrFun h ValueIdx.ix0
  -- the result is ((((t0 and t1) and t2) and t3) and t4), each `t` one input's test
  dsimp only [Cert.Pre_finite_inputs.fn, Cert.Pre_finite_inputs.fn_part1, Idealize.ShloMosaic.andi] at h0
  -- drop the slope's test, then the bias's, then split off the weight's, the features' and the adjacency's
  obtain ⟨h1, _⟩ := IntOp.andi_eq_one.1 h0
  obtain ⟨h2, _⟩ := IntOp.andi_eq_one.1 h1
  obtain ⟨h3, hw⟩ := IntOp.andi_eq_one.1 h2
  obtain ⟨ha, hs⟩ := IntOp.andi_eq_one.1 h3
  exact ⟨Cert.Lib.FiniteTest.allReal_of_all x0 _ _ _ _ _ _ ha,
    Cert.Lib.FiniteTest.allReal_of_all x1 _ _ _ _ _ _ hs,
    Cert.Lib.FiniteTest.allReal_of_all x2 _ _ _ _ _ _ hw⟩

end Cert.Gcn.Finite

end
-- ==== Proof.lean ====
/-
  One graph-convolution layer, out = act(adj · (seq · Wᵀ) + bias) with act z = z where z ≥ 0 and alpha · z elsewhere:
  the row-blocked program against the plain one, on the extended reals.

  The plain program multiplies the node features by the transposed weight first and the adjacency by that product
  second. The row-blocked program takes 400 rows of the adjacency at a time, multiplies them by the node features
  first and by the transposed weight second, adds the bias row and applies the activation, block by block over 25
  blocks. Entry (0, p, q) of either result is act alpha (row + bias q), where the row sum is

      sum_j adj(p, j) · (sum_d seq(j, d) · W(q, d))      in the plain program, and
      sum_d (sum_j adj(p, j) · seq(j, d)) · W(q, d)      in the row-blocked one.

  The two are the associativity of a vector through two matrix products: distributivity and an exchange of two finite
  sums. On the extended reals distributivity fails at the infinities, so this is where the precondition is used:
  every entry of the adjacency, of the features and of the weight is a real number. The bias and the slope enter
  after the sums and need no hypothesis.

  The modules: Spec (the two orders of summation and their equality on reals), RefRead (the plain program at an
  entry), Payload (one row block's arithmetic at an entry), Blocks (the 25 row blocks tile the output), Host (the
  re-layouts between the batched arrays and the matrices), KernelValue (the row-blocked program's result at an entry
  and its run), Finite (the precondition gives real entries). The plain program's run and its operations read at an
  index are the generated modules; so are the three frames' runs. The idealized program is the printed one read on
  the extended reals with no rewrite, so `preserves` has nothing to state.
-/
import proofs.«117876_g34986803593431_cont_8to1_b_28_17_alg».proof.Defs
import proofs.«117876_g34986803593431_cont_8to1_b_28_17_alg».proof.Proof.Gen.Kernel
import proofs.«117876_g34986803593431_cont_8to1_b_28_17_alg».proof.Proof.Gen.Kernel.Skeleton
import proofs.«117876_g34986803593431_cont_8to1_b_28_17_alg».proof.Proof.Gen.Kernel.Launch
import proofs.«117876_g34986803593431_cont_8to1_b_28_17_alg».proof.Proof.Gen.Kernel.Points
import proofs.«117876_g34986803593431_cont_8to1_b_28_17_alg».proof.Proof.Gen.Kernel.Frame
import proofs.«117876_g34986803593431_cont_8to1_b_28_17_alg».proof.Proof.Gen.KernelIdeal
import proofs.«117876_g34986803593431_cont_8to1_b_28_17_alg».proof.Proof.Gen.KernelIdeal.Skeleton
import proofs.«117876_g34986803593431_cont_8to1_b_28_17_alg».proof.Proof.Gen.KernelIdeal.Launch
import proofs.«117876_g34986803593431_cont_8to1_b_28_17_alg».proof.Proof.Gen.KernelIdeal.Points
import proofs.«117876_g34986803593431_cont_8to1_b_28_17_alg».proof.Proof.Gen.KernelIdeal.Frame
import proofs.«117876_g34986803593431_cont_8to1_b_28_17_alg».proof.Proof.Gen.ReferenceIdeal
import proofs.«117876_g34986803593431_cont_8to1_b_28_17_alg».proof.Proof.Gen.Pre_finite_inputs
import proofs.«117876_g34986803593431_cont_8to1_b_28_17_alg».proof.Proof.Gen.ReferenceIdeal.Run
import proofs.«117876_g34986803593431_cont_8to1_b_28_17_alg».proof.Proof.Gen.ReferenceIdeal.Read
import proofs.«117876_g34986803593431_cont_8to1_b_28_17_alg».proof.Proof.KernelValue
import proofs.«117876_g34986803593431_cont_8to1_b_28_17_alg».proof.Proof.RefRead
import proofs.«117876_g34986803593431_cont_8to1_b_28_17_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and keeps its arguments. -/
theorem frame_k : Cert.frame_Kernel := fun m ρ _ => Cert.Kernel.Gen.frame m ρ

/-- The idealized row-blocked program runs and keeps its arguments. -/
theorem frame_ki : Cert.frame_KernelIdeal := fun m ρ _ => Cert.KernelIdeal.Gen.frame m ρ

/-- The plain program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On real-valued adjacency, features and weight the two programs end with the same array: entry by entry the two
    orders of summation agree, and the bias and the activation are applied alike. -/
theorem algebraic : Cert.algebraic_KernelIdeal_ReferenceIdeal := by
  intro m ρ m' ρ' hpre hagree
  refine ⟨fun c => Cert.ReferenceIdeal.Read.val_main_v9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.Gcn.Kernel.run m ρ)
    obtain ⟨h0, h1, h2⟩ := Cert.Gcn.Finite.real_of_pre _ _ _ _ _ (hpre c)
    funext i
    obtain ⟨u, p, q, rfl⟩ : ∃ (u : Fin 1) (p : Fin 10000) (q : Fin 128), i = ix3 u p q := ⟨i 0, i 1, i 2, eq_ix3 i⟩
    obtain rfl : u = 0 := Subsingleton.elim _ _
    rw [Cert.Gcn.Kernel.result_apply]
    exact (Cert.Gcn.kerOut_eq_refOut _ _ _ _ _ (fun j => h0 _) (fun j d => h1 _) (fun d => h2 _)).trans
      (Cert.Gcn.Ref.ref_apply _ _ _ _ _ p q).symm
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
